-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S1024x1024 : Shape := ⟨2, ![1024, 1024]⟩
abbrev S1 : Shape := ⟨1, ![1]⟩
abbrev S1024 : Shape := ⟨1, ![1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1 : S_.BroadcastsInDim S1 (![] : Fin 0 → Fin S1.rank)
  reducesTo_S1_S_d0 : S1.ReducesTo [0] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S8x4096x1024 .f32) (main_arg1 : FVec F S1024x1024 .f32) (main_arg2 : FVec F S1 .f32) (main_arg3 : FVec F S1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S8x4096x1024 : Shape := ⟨3, ![8, 4096, 1024]⟩
abbrev S1024x1024 : Shape := ⟨2, ![1024, 1024]⟩
abbrev S1 : Shape := ⟨1, ![1]⟩
abbrev S1024 : Shape := ⟨1, ![1024]⟩
abbrev S_ : Shape := ⟨0, ![]⟩
abbrev S1x1 : Shape := ⟨2, ![1, 1]⟩
abbrev S32768x1024 : Shape := ⟨2, ![32768, 1024]⟩
abbrev S1x1024 : Shape := ⟨2, ![1, 1024]⟩

abbrev nBuf : Space → Nat
  | .hbm => 17
  | .vmem => 8
  | .smem => 0
  | _ => 0

abbrev bufTy : (tb : Table) → Fin (tcTables nBuf tb) → BufTy
  | .hbm, ⟨0, _⟩ => ⟨S8x4096x1024, .f32⟩
  | .hbm, ⟨1, _⟩ => ⟨S1024x1024, .f32⟩
  | .hbm, ⟨2, _⟩ => ⟨S1, .f32⟩
  | .hbm, ⟨3, _⟩ => ⟨S1024, .f32⟩
  | .hbm, ⟨4, _⟩ => ⟨S1024x1024, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S1x1, .f32⟩
  | .hbm, ⟨12, _⟩ => ⟨S1x1, .f32⟩
  | .hbm, ⟨13, _⟩ => ⟨S32768x1024, .f32⟩
  | .hbm, ⟨14, _⟩ => ⟨S1x1024, .f32⟩
  | .hbm, ⟨15, _⟩ => ⟨S32768x1024, .f32⟩
  | .hbm, ⟨16, _⟩ => ⟨S8x4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1, .f32⟩
  | .local _ .vmem, ⟨5, _⟩ => ⟨S1x1, .f32⟩
  | .local _ .vmem, ⟨6, _⟩ => ⟨S1024x1024, .f32⟩
  | .local _ .vmem, ⟨7, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  reducesTo_S1024x1024_S_d0_1 : S1024x1024.ReducesTo [0, 1] S_
  h_S_ : 0 < S_.numel
  shapeCasts_S_S1x1 : S_.ShapeCasts S1x1
  shapeCasts_S1_S1x1 : S1.ShapeCasts S1x1
  shapeCasts_S8x4096x1024_S32768x1024 : S8x4096x1024.ShapeCasts S32768x1024
  shapeCasts_S1024_S1x1024 : S1024.ShapeCasts S1x1024
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x1024_S1024x1024_0_0 : ∀ a, (![0, 0] : Fin 2 → Nat) a + S1024x1024.size a ≤ S1024x1024.size a
  h_S1024x1024 : 0 < S1024x1024.numel
  broadcasts_S1x1_S1024x1024 : S1x1.Broadcasts S1024x1024
  bitsLt_bf16_f32 : FTy.bits .bf16 < FTy.bits .f32
  shapeCasts_S1024x1024_S1024x1024 : S1024x1024.ShapeCasts S1024x1024
  transposes_S1024x1024_p1_0_S1024x1024 : S1024x1024.Transposes [1, 0] S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S32768x1024_S8x4096x1024 : S32768x1024.ShapeCasts S8x4096x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .f32 = 32 ∨ (Rect.block (s := S32768x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S32768x1024.size a
  hwx0_5 : ∀ i : grid0.Coords, EltTy.bits .f32 = 32 ∨ (Rect.block (s := S32768x1024) S1024x1024.size (cc0_transform_5 i) (hinb0_5 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v6) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x4096x1024 : Shape := ⟨3, ![8, 4096, 1024]⟩
abbrev S1024x1024 : Shape := ⟨2, ![1024, 1024]⟩
abbrev S1 : Shape := ⟨1, ![1]⟩
abbrev S1024 : Shape := ⟨1, ![1024]⟩
abbrev S_ : Shape := ⟨0, ![]⟩
abbrev S1x1 : Shape := ⟨2, ![1, 1]⟩
abbrev S1x1x1024 : Shape := ⟨3, ![1, 1, 1024]⟩

abbrev nBuf : Space → Nat
  | .hbm => 32
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024x1024, .f32⟩
  | .hbm, ⟨2, _⟩ => ⟨S1, .f32⟩
  | .hbm, ⟨3, _⟩ => ⟨S1024, .f32⟩
  | .hbm, ⟨4, _⟩ => ⟨S1024x1024, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S1024x1024, .f32⟩
  | .hbm, ⟨12, _⟩ => ⟨S1024x1024, .i1⟩
  | .hbm, ⟨13, _⟩ => ⟨S_, .f32⟩
  | .hbm, ⟨14, _⟩ => ⟨S1024x1024, .f32⟩
  | .hbm, ⟨15, _⟩ => ⟨S1024x1024, .i1⟩
  | .hbm, ⟨16, _⟩ => ⟨S_, .f32⟩
  | .hbm, ⟨17, _⟩ => ⟨S_, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S_, .f32⟩
  | .hbm, ⟨22, _⟩ => ⟨S1024x1024, .f32⟩
  | .hbm, ⟨23, _⟩ => ⟨S1024x1024, .f32⟩
  | .hbm, ⟨24, _⟩ => ⟨S1024x1024, .f32⟩
  | .hbm, ⟨25, _⟩ => ⟨S1x1, .f32⟩
  | .hbm, ⟨26, _⟩ => ⟨S1024x1024, .f32⟩
  | .hbm, ⟨27, _⟩ => ⟨S1024x1024, .f32⟩
  | .hbm, ⟨28, _⟩ => ⟨S8x4096x1024, .f32⟩
  | .hbm, ⟨29, _⟩ => ⟨S1x1x1024, .f32⟩
  | .hbm, ⟨30, _⟩ => ⟨S8x4096x1024, .f32⟩
  | .hbm, ⟨31, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_cst_3 : Ref sig .tc := ⟨.hbm, 17, rfl⟩
abbrev main_call0_v0 : Ref sig .tc := ⟨.hbm, 18, rfl⟩
abbrev main_call0_v1 : Ref sig .tc := ⟨.hbm, 19, rfl⟩
abbrev main_v9 : Ref sig .tc := ⟨.hbm, 20, rfl⟩
abbrev main_cst_4 : Ref sig .tc := ⟨.hbm, 21, rfl⟩
abbrev main_call1_v0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩

abbrev nD : Nat := 1
abbrev τ : Topo := Topo.v7x

variable {F : FTy → Type} [FloatOps F]

class Facts₀ : Prop where
  reducesTo_S1024x1024_S_d0_1 : S1024x1024.ReducesTo [0, 1] S_
  h_S_ : 0 < S_.numel
  bcast_S_S1024x1024 : S_.BroadcastsInDim S1024x1024 (![] : Fin 0 → Fin S1024x1024.rank)
  bcast_S1_S1x1_1 : S1.BroadcastsInDim S1x1 (![1] : Fin 1 → Fin S1x1.rank)
  bcast_S1x1_S1024x1024_0_1 : S1x1.BroadcastsInDim S1024x1024 (![0, 1] : Fin 2 → Fin S1024x1024.rank)
  bcast_S1024_S1x1x1024_2 : S1024.BroadcastsInDim S1x1x1024 (![2] : Fin 1 → Fin S1x1x1024.rank)
  bcast_S1x1x1024_S8x4096x1024_0_1_2 : S1x1x1024.BroadcastsInDim S8x4096x1024 (![0, 1, 2] : Fin 3 → Fin S8x4096x1024.rank)
  dot_S8x4096x1024_S1024x1024_S8x4096x1024_2_1_01_0_n_n_wf : DotDims.WF S8x4096x1024 S1024x1024 S8x4096x1024 [2] [1] [0, 1] [0] [] []

variable [Facts₀]

def dot_S8x4096x1024_S1024x1024_S8x4096x1024_2_1_01_0_n_n : DotDims S8x4096x1024 S1024x1024 S8x4096x1024 where
  lhsContracting := [2]
  rhsContracting := [1]
  lhsNonContracting := [0, 1]
  rhsNonContracting := [0]
  lhsBatch := []
  rhsBatch := []
  wf := dot_S8x4096x1024_S1024x1024_S8x4096x1024_2_1_01_0_n_n_wf

class Facts : Prop extends Facts₀ where

variable [Facts]
-- ==== Proof.Spec.lean ====
/-
  The mathematics of the ternary linear layer, on the extended reals, with no program in sight.

  A weight `w` is coded against a threshold `δ` as `1` above `δ`, `-1` below `-δ`, `0` between
  (`code`). One entry of the layer's output is, in the order one program computes it,
  `(∑ₖ x[p,s,k] · code δ w[o,k]) · α + b[o]` (`elemScaleAfter`: the scale applied to the finished sum),
  and in the order the other does, `∑ₖ x[p,s,k] · (code δ w[o,k] · α) + b[o]` (`elemScaleInside`: the
  scale folded into each coded weight). On the extended reals a factor moves across a sum only when
  nothing is infinite: `(1 - 1) · ⊤ = 0` but `1 · ⊤ - 1 · ⊤ = ⊥`. A code is always one of three reals,
  so the two orders agree as soon as the activations `x` and the scale `α` are real
  (`elemScaleAfter_eq_elemScaleInside`); the weights and the bias may be anything.
-/
import Idealize.ShloMosaic.PureOps.Ideal
import Idealize.ShloMosaic.PureOps.Ideal.Laws
import Idealize.ShloMosaic.Lib.ValueIdx

noncomputable section

open scoped BigOperators

namespace TernaryLinear

open Idealize.ShloMosaic Idealize.ShloMosaic.ValueIdx

/-- The ternary code of a weight `w` against the threshold `δ`: the float patterns of `1.0`, `-1.0` and
    `0.0`, chosen by the two comparisons `w > δ` and `w < -δ` (the first wins). -/
def code (δ w : EReal) : EReal :=
  Scalar.select (FloatOps.cmpf (F := Ideal) (φ := .f32) .ogt w δ) (Ideal.ofBits .f32 0x3F800000#32)
    (Scalar.select (FloatOps.cmpf (F := Ideal) (φ := .f32) .olt w (-δ)) (Ideal.ofBits .f32 0xBF800000#32)
      (Ideal.ofBits .f32 0x00000000#32))

/-- A code is a real number: one of `1`, `-1`, `0`, whatever the weight and the threshold are. -/
theorem code_real (δ w : EReal) : ∃ r : ℝ, code δ w = (r : EReal) := by
  have h1 : Ideal.ofBits .f32 0x3F800000#32 = ((1 : ℝ) : EReal) := IdealRules.sign_bit.ideal_onePat .f32
  have hn : Ideal.ofBits .f32 0xBF800000#32 = ((-1 : ℝ) : EReal) := IdealRules.sign_bit.ideal_negOnePat .f32
  have h0 : Ideal.ofBits .f32 0x00000000#32 = ((0 : ℝ) : EReal) := Ideal.ofBits_zero_f32
  unfold code Scalar.select
  split
  · exact ⟨1, h1⟩
  · split
    · exact ⟨-1, hn⟩
    · exact ⟨0, h0⟩

/-- A finite sum of reals, read in the extended reals, is the sum of the readings. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- THE LAW. When every `x k` and `α` are real and every `t k` is real, scaling the finished sum by `α` is
    scaling each second factor by `α`: both sides are the real number `∑ₖ xₖ tₖ α`. -/
theorem sum_mul_scale {ι : Type} [Fintype ι] (x t : ι → EReal) (α : EReal)
    (hx : ∀ k, ∃ r : ℝ, x k = (r : EReal)) (ht : ∀ k, ∃ r : ℝ, t k = (r : EReal)) (hα : ∃ r : ℝ, α = (r : EReal)) :
    (∑ k, x k * t k) * α = ∑ k, x k * (t k * α) := by
  choose x' hx' using hx
  choose t' ht' using ht
  obtain ⟨a, rfl⟩ := hα
  have hl : ∀ k, x k * t k = ((x' k * t' k : ℝ) : EReal) := fun k => by rw [hx' k, ht' k, EReal.coe_mul]
  have hr : ∀ k, x k * (t k * (a : EReal)) = ((x' k * (t' k * a) : ℝ) : EReal) := fun k => by
    rw [hx' k, ht' k, EReal.coe_mul, EReal.coe_mul]
  rw [Finset.sum_congr rfl fun k _ => hl k, Finset.sum_congr rfl fun k _ => hr k, ← coe_sum, ← coe_sum,
    ← EReal.coe_mul, Finset.sum_mul]
  exact congrArg _ (Finset.sum_congr rfl fun k _ => mul_assoc _ _ _)

/-- The activations [8, 4096, 1024], the weights [1024 out, 1024 in], the bias [1024]. -/
abbrev Acts := (⟨3, ![8, 4096, 1024]⟩ : Shape).Idx → EReal
abbrev Weights := (⟨2, ![1024, 1024]⟩ : Shape).Idx → EReal
abbrev Bias := (⟨1, ![1024]⟩ : Shape).Idx → EReal

/-- One output entry with the scale applied to the finished sum over the input features. -/
def elemScaleAfter (δ : EReal) (x : Acts) (w : Weights) (α : EReal) (b : Bias) (p : Fin 8) (s : Fin 4096) (o : Fin 1024) : EReal :=
  (∑ k : Fin 1024, x (ix3 p s k) * code δ (w (ix2 o k))) * α + b (ix1 o)

/-- One output entry with the scale folded into each coded weight. -/
def elemScaleInside (δ : EReal) (x : Acts) (w : Weights) (α : EReal) (b : Bias) (p : Fin 8) (s : Fin 4096) (o : Fin 1024) : EReal :=
  (∑ k : Fin 1024, x (ix3 p s k) * (code δ (w (ix2 o k)) * α)) + b (ix1 o)

/-- The whole output in the first order, index by index. -/
def outScaleAfter (δ : EReal) (x : Acts) (w : Weights) (α : EReal) (b : Bias) : Acts :=
  fun i => elemScaleAfter δ x w α b (i 0) (i 1) (i 2)

/-- The whole output in the second order, index by index. -/
def outScaleInside (δ : EReal) (x : Acts) (w : Weights) (α : EReal) (b : Bias) : Acts :=
  fun i => elemScaleInside δ x w α b (i 0) (i 1) (i 2)

theorem outScaleAfter_ix3 (δ : EReal) (x : Acts) (w : Weights) (α : EReal) (b : Bias) (p : Fin 8) (s : Fin 4096) (o : Fin 1024) :
    outScaleAfter δ x w α b (ix3 p s o) = elemScaleAfter δ x w α b p s o := rfl

theorem outScaleInside_ix3 (δ : EReal) (x : Acts) (w : Weights) (α : EReal) (b : Bias) (p : Fin 8) (s : Fin 4096) (o : Fin 1024) :
    outScaleInside δ x w α b (ix3 p s o) = elemScaleInside δ x w α b p s o := rfl

/-- With real activations and a real scale the two orders give the same output, whatever the threshold, the
    weights and the bias are: the law above at each output entry, the codes being real by `code_real`. -/
theorem outScaleAfter_eq_outScaleInside (δ : EReal) (x : Acts) (w : Weights) (α : EReal) (b : Bias)
    (hx : ∀ i, ∃ r : ℝ, x i = (r : EReal)) (hα : ∃ r : ℝ, α = (r : EReal)) :
    outScaleAfter δ x w α b = outScaleInside δ x w α b := by
  funext i
  show elemScaleAfter δ x w α b (i 0) (i 1) (i 2) = elemScaleInside δ x w α b (i 0) (i 1) (i 2)
  unfold elemScaleAfter elemScaleInside
  rw [sum_mul_scale (fun k : Fin 1024 => x (ix3 (i 0) (i 1) k)) (fun k : Fin 1024 => code δ (w (ix2 (i 2) k))) α
    (fun k => hx _) (fun k => code_real _ _) hα]

end TernaryLinear

end
-- ==== Proof.Finite.lean ====
/-
  From the precondition to real numbers.

  The precondition is the conjunction of four `all(|x| < +∞)`, one per argument. A conjunction of bits that is
  one has every conjunct one; an `all` that is one has every compared element one; and `|x| < +∞` on the
  extended reals, `|x|` being `max x (-x)`, fails at both infinities, so it leaves `x` a real number. Only the
  activations and the scale are needed downstream.
-/
import proofs.«107895_j44719199486025_2_alg».proof.Pre_finite_inputs
import proofs.«107895_j44719199486025_2_alg».proof.Proof.Gen.Pre_finite_inputs
import Idealize.ShloMosaic.Lib.ReduceAll
import Idealize.ShloMosaic.Lib.ValueIdx
import Idealize.ShloMosaic.PureOps.Ideal.Laws

noncomputable section

namespace TernaryLinear.Finite

open Cert.Pre_finite_inputs Idealize.ShloMosaic Idealize.ShloMosaic.ValueIdx

/-- The pattern of `+∞` denotes the top of the extended reals. -/
theorem inf_f32 : Ideal.ofBits .f32 0x7F800000#32 = ⊤ := by simp [Ideal.ofBits, Ideal.ieee]

/-- `|x| < +∞`, as a comparison bit that is one, makes `x` a real number. -/
theorem real_of_abs_lt_inf (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  rw [inf_f32] at h
  induction x using EReal.rec with
  | bot => exact absurd h (by simp [Ideal.cmpf_def, Ideal.cmp, Ideal.hostAbsf_def, Ideal.absf_def])
  | top => exact absurd h (by simp [Ideal.cmpf_def, Ideal.cmp, Ideal.hostAbsf_def, Ideal.absf_def])
  | coe r => exact ⟨r, rfl⟩

instance : Subsingleton S_.Idx := ⟨fun a b => funext fun d => d.elim0⟩

/-- Under the precondition every activation and the scale are real numbers. -/
theorem real_of_pre (x0 : FVec Ideal S8x4096x1024 .f32) (x1 : FVec Ideal S1024x1024 .f32) (x2 : FVec Ideal S1 .f32) (x3 : FVec Ideal S1024 .f32)
    (h : fn (F := Ideal) x0 x1 x2 x3 = fun _ => 1#1) :
    (∀ i, ∃ r : ℝ, x0 i = (r : EReal)) ∧ (∀ i, ∃ r : ℝ, x2 i = (r : EReal)) := by
  have h0 := congrFun h ix0
  dsimp only [fn, fn_part1] at h0
  obtain ⟨h012, -⟩ := IntOp.andi_eq_one.1 h0
  obtain ⟨h01, h2⟩ := IntOp.andi_eq_one.1 h012
  obtain ⟨h0', -⟩ := IntOp.andi_eq_one.1 h01
  exact ⟨fun i => real_of_abs_lt_inf _ (Host.reduce_andi_all _ _ _ _ _ h0' i),
    fun i => real_of_abs_lt_inf _ (Host.reduce_andi_all _ _ _ _ _ h2 i)⟩

end TernaryLinear.Finite

end
-- ==== Proof.RefValue.lean ====
/-
  The reference program's result, read at an index, is the layer with the scale folded into each coded
  weight: entry (p, s, o) is `∑ₖ x[p,s,k] · (code δ w[o,k] · α) + b[o]`, where the threshold `δ` is the
  reference's own scalar `0.7 · (∑|w| / 2²⁰)` (kept as the program's term, never opened), `α` the one
  entry of the scale vector, and the contraction runs over the input features of both operands.
-/
import proofs.«107895_j44719199486025_2_alg».proof.Proof.Gen.ReferenceIdeal.Read
import proofs.«107895_j44719199486025_2_alg».proof.Proof.Spec

noncomputable section

open scoped BigOperators

namespace TernaryLinear.Reference

open Cert.ReferenceIdeal Cert.ReferenceIdeal.Read Idealize.ShloMosaic Idealize.ShloMosaic.ValueIdx TernaryLinear

/-- The reference's threshold: its scalar stage, at the scalar's one index. -/
def threshold (w : Weights) : EReal := val_main_v3 (F := Ideal) w ix0

/-- The scaled coded weight at (o, k): the select-of-selects the reference builds from its two comparisons
    is `code`, and the doubly broadcast scale vector is its one entry. -/
theorem scaled_code_at (w : Weights) (a : (⟨1, ![1]⟩ : Shape).Idx → EReal) (o k : Fin 1024) :
    val_main_v14 (F := Ideal) w a (ix2 o k) = code (threshold w) (w (ix2 o k)) * a (ix1 0) := by
  have e12 : idx_main_v12 (idx_main_v13 (ix2 o k)) = ix1 (0 : Fin 1) :=
    funext fun d => Fin.ext (by match d with | ⟨0, _⟩ => rfl)
  rw [val_main_v14_apply, val_main_v11_apply, val_main_v10_apply, val_main_v5_apply, val_main_v4_apply,
    val_main_call1_v0_apply, val_main_cst_4_apply, val_main_v9_apply, val_main_v8_apply, val_main_v7_apply,
    val_main_v6_apply, val_main_call0_v0_apply, val_main_cst_2_apply, val_main_call0_v1_apply, val_main_cst_3_apply,
    val_main_v13_apply, val_main_v12_apply, e12]
  rfl

/-- The reference's result is the layer in the scale-inside order. -/
theorem result_eq (x : Acts) (w : Weights) (a : (⟨1, ![1]⟩ : Shape).Idx → EReal) (b : Bias) :
    val_main_v18 (F := Ideal) x w a b = outScaleInside (threshold w) x w (a (ix1 0)) b := by
  funext i
  obtain ⟨p, s, o, rfl⟩ : ∃ (p : Fin 8) (s : Fin 4096) (o : Fin 1024), i = ix3 p s o := ⟨i 0, i 1, i 2, eq_ix3 i⟩
  have el : ∀ k : Fin 1024, lidx_main_v15 (ix3 p s o) k = ix3 p s k := fun k =>
    funext fun d => Fin.ext (by match d with | ⟨0, _⟩ => rfl | ⟨1, _⟩ => rfl | ⟨2, _⟩ => rfl)
  have er : ∀ k : Fin 1024, ridx_main_v15 (ix3 p s o) k = ix2 o k := fun k =>
    funext fun d => Fin.ext (by match d with | ⟨0, _⟩ => rfl | ⟨1, _⟩ => rfl)
  have eb : idx_main_v16 (idx_main_v17 (ix3 p s o)) = ix1 o :=
    funext fun d => Fin.ext (by match d with | ⟨0, _⟩ => rfl)
  rw [outScaleInside_ix3, val_main_v18_apply, val_main_v15_apply, val_main_v17_apply, val_main_v16_apply, eb]
  unfold elemScaleInside
  refine congrArg (· + b (ix1 o)) (Finset.sum_congr rfl fun k _ => ?_)
  rw [el k, er k, scaled_code_at]

end TernaryLinear.Reference

end
-- ==== Proof.KernelPayload.lean ====
/-
  The kernel body's stored value, read at one entry (r, o) of its [1024 rows, 1024 outputs] block.

  The body codes the whole weight block against the threshold it was handed as a [1,1] block, transposes the
  codes, multiplies the block of activation rows by them on the matrix unit into a zero accumulator, scales
  the product by the [1,1] scale block and adds the bias row. Read at (r, o) that is
  `(∑ₖ x[r,k] · code δ w[o,k]) · α + b[0,o]`: the roundings to the matrix unit's input format are the
  identity on the extended reals, the transpose swaps the coded weight's coordinates back, the subtraction
  `0 - δ` the body uses for the lower threshold is `-δ`, and the contraction index is its one coordinate.
-/
import proofs.«107895_j44719199486025_2_alg».proof.Proof.Gen.KernelIdeal.Skeleton
import proofs.«107895_j44719199486025_2_alg».proof.Proof.Spec
import Idealize.ShloMosaic.Lib.Pipeline.Value
import Idealize.ShloMosaic.Lib.ValueIdx
import Idealize.ShloMosaic.PureOps.Ideal.Laws

noncomputable section

open scoped BigOperators

namespace TernaryLinear.Kernel

open Cert.KernelIdeal Cert.KernelIdeal.Gen Idealize.ShloMosaic Idealize.ShloMosaic.ValueIdx TernaryLinear

/-- A [1,1] block broadcast over the [1024,1024] block reads its one entry everywhere. -/
theorem bcast_scalar_at (v : FVec Ideal S1x1 .f32) (h : S1x1.Broadcasts S1024x1024) (a b : Fin 1024) :
    broadcastTo S1024x1024 v h (ix2 a b) = v (ix2 0 0) :=
  broadcastTo_apply v h (ix2 a b) (ix2 0 0) (fun d => by match d with | ⟨0, _⟩ => rfl | ⟨1, _⟩ => rfl)

/-- A [1,1024] row broadcast over the [1024,1024] block reads the row at the column. -/
theorem bcast_row_at (v : FVec Ideal S1x1024 .f32) (h : S1x1024.Broadcasts S1024x1024) (a b : Fin 1024) :
    broadcastTo S1024x1024 v h (ix2 a b) = v (ix2 0 b) :=
  broadcastTo_apply v h (ix2 a b) (ix2 0 b) (fun d => by match d with | ⟨0, _⟩ => rfl | ⟨1, _⟩ => rfl)

/-- The body's select-of-selects over the two comparisons, read at (o, k), is the ternary code of the weight
    there against the threshold block's one entry: `0 - δ = -δ` on every extended real. -/
theorem coded_at (δv : FVec Ideal S1x1 .f32) (wv : FVec Ideal S1024x1024 .f32) (hb : S1x1.Broadcasts S1024x1024) (o k : Fin 1024) :
    select (cmpf (F := Ideal) .ogt wv (broadcastTo S1024x1024 δv hb)) (broadcast S1024x1024 (Scalar.ofBits (F := Ideal) .f32 0x3F800000#32))
      (select (cmpf (F := Ideal) .olt wv (broadcastTo S1024x1024 (subf (broadcast S1x1 (Scalar.ofBits (F := Ideal) .f32 0x00000000#32)) δv) hb))
        (broadcast S1024x1024 (Scalar.ofBits (F := Ideal) .f32 0xBF800000#32)) (broadcast S1024x1024 (Scalar.ofBits (F := Ideal) .f32 0x00000000#32)))
      (ix2 o k) = code (δv (ix2 0 0)) (wv (ix2 o k)) := by
  rw [select_apply, select_apply, cmpf_apply, cmpf_apply, bcast_scalar_at, bcast_scalar_at]
  have hneg : subf (broadcast S1x1 (Scalar.ofBits (F := Ideal) .f32 0x00000000#32)) δv (ix2 0 0) = -(δv (ix2 0 0)) := by
    show Ideal.ofBits .f32 0x00000000#32 - δv (ix2 0 0) = _
    rw [Ideal.ofBits_zero_f32, zero_sub]
  rw [hneg]
  rfl

/-- The matrix unit's dimension numbers in this body: rows × features times features × outputs. -/
abbrev dims := dot_S1024x1024_S1024x1024_S1024x1024_1_0_0_1_n_n

theorem lhs_row (i : S1024x1024.Idx) (q : dims.contr.Idx) : (dims.lhsIdx i q 0).val = (i 0).val := by
  unfold DotDims.lhsIdx
  rw [dif_neg (show ¬(0 : Fin S1024x1024.rank) ∈ dims.lhsBatch by decide), dif_pos (show (0 : Fin S1024x1024.rank) ∈ dims.lhsNonContracting by decide)]
  rfl
theorem lhs_feature (i : S1024x1024.Idx) (q : dims.contr.Idx) : (dims.lhsIdx i q 1).val = (q ⟨0, by decide⟩).val :=
  dims.lhsIdx_val_of_single rfl i q
theorem rhs_feature (i : S1024x1024.Idx) (q : dims.contr.Idx) : (dims.rhsIdx i q 0).val = (q ⟨0, by decide⟩).val :=
  dims.rhsIdx_val_of_single rfl i q
theorem rhs_output (i : S1024x1024.Idx) (q : dims.contr.Idx) : (dims.rhsIdx i q 1).val = (i 1).val := by
  unfold DotDims.rhsIdx
  rw [dif_neg (show ¬(1 : Fin S1024x1024.rank) ∈ dims.rhsBatch by decide), dif_pos (show (1 : Fin S1024x1024.rank) ∈ dims.rhsNonContracting by decide)]
  rfl

/-- The product into a zero accumulator, read at (r, o): the sum over the feature index of row entry times
    column entry. -/
theorem matmul_at (xv tv : FVec Ideal S1024x1024 .bf16) (r o : Fin 1024) :
    matmul dims none xv tv (constant (F := Ideal) S1024x1024 .f32 0x00000000#32) (ix2 r o) = ∑ k : Fin 1024, xv (ix2 r k) * tv (ix2 k o) := by
  simp only [matmul]
  rw [Ideal.matmul_constant_zero_apply, ← Equiv.sum_comp (contrEquiv1 dims 1024 rfl rfl).symm]
  refine Finset.sum_congr rfl fun k _ => ?_
  have hk := contrEquiv1_symm_val dims 1024 rfl rfl k
  have el : dims.lhsIdx (ix2 r o) ((contrEquiv1 dims 1024 rfl rfl).symm k) = ix2 r k := funext fun a => Fin.ext (by
    match a with
    | ⟨0, _⟩ => exact lhs_row _ _
    | ⟨1, _⟩ => exact (lhs_feature _ _).trans hk)
  have er : dims.rhsIdx (ix2 r o) ((contrEquiv1 dims 1024 rfl rfl).symm k) = ix2 k o := funext fun a => Fin.ext (by
    match a with
    | ⟨0, _⟩ => exact (rhs_feature _ _).trans hk
    | ⟨1, _⟩ => exact rhs_output _ _)
  rw [el, er]

/-- THE BODY'S STORED VALUE at (r, o), from the five blocks it loads: the threshold block `dv`, the scale block
    `av`, the weight block `wv`, the block of activation rows `xv` and the bias row `bv`. -/
theorem payload_at (dv av : Vec Ideal S1x1 .f32) (wv xv : Vec Ideal S1024x1024 .f32) (bv : Vec Ideal S1x1024 .f32) (r o : Fin 1024) :
    k0_pay1 (F := Ideal) dv av wv xv bv (ix2 r o)
      = (∑ k : Fin 1024, xv (ix2 r k) * code (dv (ix2 0 0)) (wv (ix2 o k))) * av (ix2 0 0) + bv (ix2 0 o) := by
  unfold k0_pay1
  simp only [shapeCast_self]
  rw [addf_apply, mulf_apply, bcast_scalar_at, bcast_row_at, matmul_at]
  refine congrArg (· + bv (ix2 0 o)) (congrArg (· * av (ix2 0 0)) (Finset.sum_congr rfl fun k _ => ?_))
  rw [truncf_apply, transpose_apply [1, 0] _ _ (ix2 k o) (ix2 o k) (fun b => by match b with | ⟨0, _⟩ => rfl | ⟨1, _⟩ => rfl),
    truncf_apply, coded_at]

end TernaryLinear.Kernel

end
-- ==== Proof.KernelValue.lean ====
/-
  What the kernel program leaves in its result, as one function of its four arguments.

  The launch tiles the [32768, 1024] row view of the activations into 32 blocks of 1024 rows; the weights,
  the bias row, the threshold and the scale are each one block, the same at every grid point. Point `t`
  writes rows `1024·t … 1024·t + 1023` of the [32768, 1024] output, each entry the body's value
  `(∑ₖ x[row,k] · code δ w[o,k]) · α + b[o]` (KernelPayload), and the 32 row blocks cover the output. The host
  lines around the launch only re-lay data: before it, the activations [8,4096,1024] are read as rows
  `4096·p + s`, the bias as a [1,1024] row, the scale and the threshold scalar as [1,1] blocks; after it
  the [32768,1024] output is read back as [8,4096,1024]. So entry (p, s, o) of the result is
  `(∑ₖ x[p,s,k] · code δ w[o,k]) · α + b[o]` — the layer with the scale applied to the finished sum.
-/
import proofs.«107895_j44719199486025_2_alg».proof.Proof.Gen.KernelIdeal.Frame
import proofs.«107895_j44719199486025_2_alg».proof.Proof.KernelPayload
import Idealize.ShloMosaic.Lib.Pipeline.Value
import Idealize.ShloMosaic.Lib.StableHlo.Run
import Idealize.ShloMosaic.Lib.Tactic

noncomputable section

open scoped BigOperators
open Idealize.ShloMosaic Idealize.ShloMosaic.TcCoe Idealize.SL.Sem
open Idealize.ShloMosaic.Pipeline (Dat)

namespace TernaryLinear.Kernel

open Cert.KernelIdeal Cert.KernelIdeal.Gen Idealize.ShloMosaic.ValueIdx TernaryLinear

variable (m : (ℓ : Loc nD τ sig) → Buf (Elt Ideal) ℓ) (ρ : Dev nD → PrngReg)

/-! ## The arrays the launch finds -/

/-- The kernel program's threshold scalar `0.7 · (∑|w| / 2²⁰)`: the host lines before the launch as one term
    of the weights, at the scalar's one index. Never opened. -/
def threshold (w : Weights) : EReal :=
  (mulf (constant (F := Ideal) S_ .f32 0x3F333333#32)
    (Host.divf (F := Ideal) (Host.reduceAdd (F := Ideal) (Host.absf (F := Ideal) w) (constant (F := Ideal) S_ .f32 0x00000000#32)
      reducesTo_S1024x1024_S_d0_1 h_S_) (constant (F := Ideal) S_ .f32 0x49800000#32))) ix0

/-- The row view of the activations: row `4096·p + s` is (p, s). -/
theorem entry_rows (c : Dev nD) (p : Fin 8) (s : Fin 4096) (k : Fin 1024) :
    (V m c main_v6 : S32768x1024.Idx → EReal) (ix2 ⟨p.val * 4096 + s.val, by omega⟩ k)
      = (m ((c : Thread nD τ).loc main_arg0) : S8x4096x1024.Idx → EReal) (ix3 p s k) := by
  have e : (V m c main_v6 : S32768x1024.Idx → EReal)
      = shapeCast S32768x1024 (m ((c : Thread nD τ).loc main_arg0) : S8x4096x1024.Idx → EReal) shapeCasts_S8x4096x1024_S32768x1024 := by
    show StableHlo.after hostOps0 (fun b => m (c, b)) (Proc.devRef .tc main_v6) = _
    after_results
    rfl
  rw [e]
  refine shapeCast_apply _ _ _ _ ?_
  show (S8x4096x1024.rowMajor (ix3 p s k)).val = (S32768x1024.rowMajor (ix2 ⟨p.val * 4096 + s.val, by omega⟩ k)).val
  rw [Shape.rowMajor_val_three, Shape.rowMajor_val_two]
  show (p.val * 4096 + s.val) * 1024 + k.val = (p.val * 4096 + s.val) * 1024 + k.val
  rfl

/-- The bias as a [1, 1024] row. -/
theorem entry_bias (c : Dev nD) (o : Fin 1024) :
    (V m c main_v7 : S1x1024.Idx → EReal) (ix2 0 o) = (m ((c : Thread nD τ).loc main_arg3) : S1024.Idx → EReal) (ix1 o) := by
  have e : (V m c main_v7 : S1x1024.Idx → EReal)
      = shapeCast S1x1024 (m ((c : Thread nD τ).loc main_arg3) : S1024.Idx → EReal) shapeCasts_S1024_S1x1024 := by
    show StableHlo.after hostOps0 (fun b => m (c, b)) (Proc.devRef .tc main_v7) = _
    after_results
    rfl
  rw [e]
  refine shapeCast_apply _ _ _ _ ?_
  show (S1024.rowMajor (ix1 o)).val = (S1x1024.rowMajor (ix2 0 o)).val
  rw [Shape.rowMajor_val_one, Shape.rowMajor_val_two]
  show o.val = 0 * 1024 + o.val
  omega

/-- The scale as a [1, 1] block. -/
theorem entry_scale (c : Dev nD) :
    (V m c main_v5 : S1x1.Idx → EReal) (ix2 0 0) = (m ((c : Thread nD τ).loc main_arg2) : S1.Idx → EReal) (ix1 0) := by
  have e : (V m c main_v5 : S1x1.Idx → EReal)
      = shapeCast S1x1 (m ((c : Thread nD τ).loc main_arg2) : S1.Idx → EReal) shapeCasts_S1_S1x1 := by
    show StableHlo.after hostOps0 (fun b => m (c, b)) (Proc.devRef .tc main_v5) = _
    after_results
    rfl
  rw [e]
  refine shapeCast_apply _ _ _ _ ?_
  show (S1.rowMajor (ix1 0)).val = (S1x1.rowMajor (ix2 0 0)).val
  rw [Shape.rowMajor_val_one, Shape.rowMajor_val_two]
  rfl

/-- The threshold as a [1, 1] block. -/
theorem entry_threshold (c : Dev nD) :
    (V m c main_v4 : S1x1.Idx → EReal) (ix2 0 0) = threshold (m ((c : Thread nD τ).loc main_arg1) : S1024x1024.Idx → EReal) := by
  have e : (V m c main_v4 : S1x1.Idx → EReal)
      = shapeCast S1x1 (mulf (constant (F := Ideal) S_ .f32 0x3F333333#32)
          (Host.divf (F := Ideal) (Host.reduceAdd (F := Ideal) (Host.absf (F := Ideal) (m ((c : Thread nD τ).loc main_arg1) : S1024x1024.Idx → EReal)) (constant (F := Ideal) S_ .f32 0x00000000#32)
            reducesTo_S1024x1024_S_d0_1 h_S_) (constant (F := Ideal) S_ .f32 0x49800000#32))) shapeCasts_S_S1x1 := by
    show StableHlo.after hostOps0 (fun b => m (c, b)) (Proc.devRef .tc main_v4) = _
    after_results
    rfl
  rw [e]
  unfold shapeCast threshold
  exact congrArg _ (eq_ix0 _)

/-- The weights reach the launch as the argument. -/
theorem entry_weights (c : Dev nD) : V m c main_arg1 = m ((c : Thread nD τ).loc main_arg1) := V_main_arg1 m c

/-! ## The windows' blocks -/

/-- The printed index maps over the 32 grid points: the activations' and the output's blocks move down the rows
    with the point; every other block stays at the origin. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 32 := by have := t.isLt; have hN : cfg0.N = 32 := N_0; omega

/-- The activations' block at point `t`: rows `1024·t + r` of the row view. -/
theorem block_rows (c : Dev nD) (t : Fin cfg0.N) (r k : Fin 1024) :
    (iblk m c 0 t : Vec Ideal S1024x1024 .f32) (ix2 r k)
      = (V m c main_v6 : S32768x1024.Idx → EReal) (ix2 ⟨t.val * 1024 + r.val, by have := point_lt t; omega⟩ k) := by
  obtain ⟨e0, e1, -⟩ := idx_facts t
  unfold iblk
  rw [View.read_apply]
  show (V m c main_v6 : S32768x1024.Idx → EReal) _ = (V m c main_v6 : S32768x1024.Idx → EReal) _
  refine congrArg (V m c main_v6 : S32768x1024.Idx → EReal) (funext fun a => Fin.ext ?_)
  match a with
  | ⟨0, _⟩ => show win0_0.index t (0 : Fin 2) * 1024 + 1 * r.val = t.val * 1024 + r.val; omega
  | ⟨1, _⟩ => show win0_0.index t (1 : Fin 2) * 1024 + 1 * k.val = k.val; omega

/-- The weights' block at every point is the whole array. -/
theorem block_weights (c : Dev nD) (t : Fin cfg0.N) (o k : Fin 1024) :
    (iblk m c 1 t : Vec Ideal S1024x1024 .f32) (ix2 o k) = (V m c main_arg1 : S1024x1024.Idx → EReal) (ix2 o k) := by
  obtain ⟨-, -, e0, e1, -⟩ := idx_facts t
  unfold iblk
  rw [View.read_apply]
  show (V m c main_arg1 : S1024x1024.Idx → EReal) _ = (V m c main_arg1 : S1024x1024.Idx → EReal) _
  refine congrArg (V m c main_arg1 : S1024x1024.Idx → EReal) (funext fun a => Fin.ext ?_)
  match a with
  | ⟨0, _⟩ => show win0_1.index t (0 : Fin 2) * 1024 + 1 * o.val = o.val; omega
  | ⟨1, _⟩ => show win0_1.index t (1 : Fin 2) * 1024 + 1 * k.val = k.val; omega

/-- The bias row's block at every point is the whole row. -/
theorem block_bias (c : Dev nD) (t : Fin cfg0.N) (o : Fin 1024) :
    (iblk m c 2 t : Vec Ideal S1x1024 .f32) (ix2 0 o) = (V m c main_v7 : S1x1024.Idx → EReal) (ix2 0 o) := by
  obtain ⟨-, -, -, -, e0, e1, -⟩ := idx_facts t
  unfold iblk
  rw [View.read_apply]
  show (V m c main_v7 : S1x1024.Idx → EReal) _ = (V m c main_v7 : S1x1024.Idx → EReal) _
  refine congrArg (V m c main_v7 : S1x1024.Idx → EReal) (funext fun a => Fin.ext ?_)
  match a with
  | ⟨0, _⟩ => show win0_2.index t (0 : Fin 2) * 1 + 1 * 0 = 0; omega
  | ⟨1, _⟩ => show win0_2.index t (1 : Fin 2) * 1024 + 1 * o.val = o.val; omega

/-- The threshold's block at every point is its one entry. -/
theorem block_threshold (c : Dev nD) (t : Fin cfg0.N) :
    (iblk m c 3 t : Vec Ideal S1x1 .f32) (ix2 0 0) = (V m c main_v4 : S1x1.Idx → EReal) (ix2 0 0) := by
  obtain ⟨-, -, -, -, -, -, e0, e1, -⟩ := idx_facts t
  unfold iblk
  rw [View.read_apply]
  show (V m c main_v4 : S1x1.Idx → EReal) _ = (V m c main_v4 : S1x1.Idx → EReal) _
  refine congrArg (V m c main_v4 : S1x1.Idx → EReal) (funext fun a => Fin.ext ?_)
  match a with
  | ⟨0, _⟩ => show win0_3.index t (0 : Fin 2) * 1 + 1 * 0 = 0; omega
  | ⟨1, _⟩ => show win0_3.index t (1 : Fin 2) * 1 + 1 * 0 = 0; omega

/-- The scale's block at every point is its one entry. -/
theorem block_scale (c : Dev nD) (t : Fin cfg0.N) :
    (iblk m c 4 t : Vec Ideal S1x1 .f32) (ix2 0 0) = (V m c main_v5 : S1x1.Idx → EReal) (ix2 0 0) := by
  obtain ⟨-, -, -, -, -, -, -, -, e0, e1, -⟩ := idx_facts t
  unfold iblk
  rw [View.read_apply]
  show (V m c main_v5 : S1x1.Idx → EReal) _ = (V m c main_v5 : S1x1.Idx → EReal) _
  refine congrArg (V m c main_v5 : S1x1.Idx → EReal) (funext fun a => Fin.ext ?_)
  match a with
  | ⟨0, _⟩ => show win0_4.index t (0 : Fin 2) * 1 + 1 * 0 = 0; omega
  | ⟨1, _⟩ => show win0_4.index t (1 : Fin 2) * 1 + 1 * 0 = 0; omega

/-! ## The output array, block by block -/

/-- One entry of the [32768, 1024] output, from the arrays the launch finds. -/
def rowsElem (X : S32768x1024.Idx → EReal) (W : S1024x1024.Idx → EReal) (δ α : EReal) (B : S1x1024.Idx → EReal)
    (R : Fin 32768) (o : Fin 1024) : EReal :=
  (∑ k : Fin 1024, X (ix2 R k) * code δ (W (ix2 o k))) * α + B (ix2 0 o)

/-- The [32768, 1024] output as one function of those arrays. -/
def rowsOut (X : S32768x1024.Idx → EReal) (W : S1024x1024.Idx → EReal) (δ α : EReal) (B : S1x1024.Idx → EReal) :
    S32768x1024.Idx → EReal :=
  fun i => rowsElem X W δ α B (i 0) (i 1)

theorem hz : (![0, 0] : Fin 2 → Nat) = fun _ => 0 := funext fun a => by fin_cases a <;> rfl

/-- The output array's function at the arrays the launch finds on core `c`. -/
abbrev rowsOutAt (c : Dev nD) : S32768x1024.Idx → EReal :=
  rowsOut (V m c main_v6 : S32768x1024.Idx → EReal) (V m c main_arg1 : S1024x1024.Idx → EReal)
    ((V m c main_v4 : S1x1.Idx → EReal) (ix2 0 0)) ((V m c main_v5 : S1x1.Idx → EReal) (ix2 0 0)) (V m c main_v7 : S1x1024.Idx → EReal)

/-- WHAT POINT `t` WRITES BACK is block `t` of that function: rows `1024·t … 1024·t + 1023`. -/
theorem flushed_eq (c : Dev nD) (t : Fin cfg0.N) :
    (dats m 0 c).flushed 5 t = ((cfg0.win 5).blk t).view.read (Elt Ideal) (rowsOutAt m c) := by
  show (cfg0.win 5).cut (grid0.coords t) ((dats m 0 c).after 5 t) = _
  rw [after0_5]
  unfold out0_5
  rw [View.canon_unit_zero hz]
  simp only [View.ld_unit_zero (S := S1x1) hz, View.ld_unit_zero (S := S1024x1024) hz, View.ld_unit_zero (S := S1x1024) hz]
  funext j
  obtain ⟨r, o, rfl⟩ : ∃ (r o : Fin 1024), j = ix2 r o := ⟨j 0, j 1, eq_ix2 j⟩
  obtain ⟨-, -, -, -, -, -, -, -, -, -, e0, e1⟩ := idx_facts t
  have hemb : ((cfg0.win 5).blk t).view.emb (ix2 r o) = ix2 ⟨t.val * 1024 + r.val, by have := point_lt t; omega⟩ o :=
    funext fun a => Fin.ext (by
      match a with
      | ⟨0, _⟩ => show win0_5.index t (0 : Fin 2) * 1024 + 1 * r.val = t.val * 1024 + r.val; omega
      | ⟨1, _⟩ => show win0_5.index t (1 : Fin 2) * 1024 + 1 * o.val = o.val; omega)
  show k0_pay1 (F := Ideal) (iblk m c 3 t) (iblk m c 4 t) (iblk m c 1 t) (iblk m c 0 t) (iblk m c 2 t) (ix2 r o)
    = rowsOutAt m c (((cfg0.win 5).blk t).view.emb (ix2 r o))
  rw [hemb]
  refine (payload_at (iblk m c 3 t) (iblk m c 4 t) (iblk m c 1 t) (iblk m c 0 t) (iblk m c 2 t) r o).trans ?_
  show _ = rowsElem _ _ _ _ _ _ o
  unfold rowsElem
  rw [block_threshold m c t, block_scale m c t, block_bias m c t o]
  refine congrArg (· + _) (congrArg (· * _) (Finset.sum_congr rfl fun k _ => ?_))
  rw [block_rows m c t r k, block_weights m c t o k]

/-- An index of the output array is in point `t`'s block iff each coordinate is in the block's range. -/
theorem mem_blk (t : Fin cfg0.N) (i : S32768x1024.Idx) :
    i ∈ ((cfg0.win 5).blk t).view.set ↔ ∀ a : Fin 2, win0_5.index t a * S1024x1024.size a ≤ (i a).val ∧ (i a).val < win0_5.index t a * S1024x1024.size a + S1024x1024.size a := by
  show i ∈ ((View.whole main_v8).slice (win0_5.rect t)).set ↔ _
  rw [View.set_slice_whole, Rect.mem_set_unit]
  exact Iff.rfl

/-- The 32 row blocks cover the output: row `R` is in block `R / 1024`. -/
theorem cover (i : S32768x1024.Idx) : ∃ t : Fin cfg0.N, (cfg0.win 5).flush t = true ∧ i ∈ ((cfg0.win 5).blk t).view.set := by
  have hi0 : (i 0).val < 32768 := (i 0).isLt
  have hi1 : (i 1).val < 1024 := (i 1).isLt
  have hN : cfg0.N = 32 := N_0
  obtain ⟨t, ht⟩ : ∃ t : Fin cfg0.N, t.val = (i 0).val / 1024 := ⟨⟨(i 0).val / 1024, by omega⟩, rfl⟩
  obtain ⟨-, -, -, -, -, -, -, -, -, -, e0, e1⟩ := idx_facts t
  refine ⟨t, flush0_5 t, ?_⟩
  rw [mem_blk]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 1024 ≤ (i 1).val ∧ (i 1).val < win0_5.index t (1 : Fin 2) * 1024 + 1024; omega

/-- THE OUTPUT ARRAY after the launch is that function. -/
theorem final (c : Dev nD) : (dats m 0 c).arrAt 5 cfg0.N = rowsOutAt m c :=
  (dats m 0 c).arrAt_eq_of_cover 5 (rowsOutAt m c) (fun t _ => flushed_eq m c t) cover

/-! ## The result, after the host line that follows the launch -/

/-- The program's result is the [32768, 1024] output read back as [8, 4096, 1024]. -/
theorem tail_eq (c : Dev nD) :
    (Pipeline.afterTail₀ cfgs (dats m) 0 (V0 m) [hostOps1] c main_v9 : S8x4096x1024.Idx → EReal)
      = shapeCast S8x4096x1024 (rowsOutAt m c) shapeCasts_S32768x1024_S8x4096x1024 := by
  unfold Pipeline.afterTail₀
  show StableHlo.after hostOps1 _ (Proc.devRef .tc main_v9) = _
  after_results
  have hw : Pipeline.withArrays (cfgs 0).spec c (V0 m c) (fun w => (dats m 0 c).arrAt w (cfgs 0).N) (Proc.devRef .tc main_v8)
      = (dats m 0 c).arrAt 5 cfg0.N := Pipeline.withArrays_arr spec0 launch0.win.arr_inj c _ _ 5
  rw [hw, final]
  rfl

/-- THE RESULT as one function of the four arguments: entry (p, s, o) is row `4096·p + s`, column `o` of the
    output array, and the arrays the launch found are the arguments re-laid — the layer with the scale applied
    to the finished sum. -/
theorem result_eq (c : Dev nD) :
    (Pipeline.afterTail₀ cfgs (dats m) 0 (V0 m) [hostOps1] c main_v9 : S8x4096x1024.Idx → EReal)
      = outScaleAfter (threshold (m ((c : Thread nD τ).loc main_arg1) : S1024x1024.Idx → EReal))
          (m ((c : Thread nD τ).loc main_arg0) : S8x4096x1024.Idx → EReal)
          (m ((c : Thread nD τ).loc main_arg1) : S1024x1024.Idx → EReal)
          ((m ((c : Thread nD τ).loc main_arg2) : S1.Idx → EReal) (ix1 0))
          (m ((c : Thread nD τ).loc main_arg3) : S1024.Idx → EReal) := by
  rw [tail_eq]
  funext i
  obtain ⟨p, s, o, rfl⟩ : ∃ (p : Fin 8) (s : Fin 4096) (o : Fin 1024), i = ix3 p s o := ⟨i 0, i 1, i 2, eq_ix3 i⟩
  rw [outScaleAfter_ix3]
  refine (shapeCast_apply _ _ (ix3 p s o) (ix2 ⟨p.val * 4096 + s.val, by omega⟩ o) ?_).trans ?_
  · show (S32768x1024.rowMajor (ix2 ⟨p.val * 4096 + s.val, by omega⟩ o)).val = (S8x4096x1024.rowMajor (ix3 p s o)).val
    rw [Shape.rowMajor_val_two, Shape.rowMajor_val_three]
    rfl
  show rowsElem _ _ _ _ _ ⟨p.val * 4096 + s.val, by omega⟩ o = _
  unfold rowsElem elemScaleAfter
  rw [entry_threshold m c, entry_scale m c, entry_bias m c o]
  refine congrArg (· + _) (congrArg (· * _) (Finset.sum_congr rfl fun k _ => ?_))
  rw [entry_rows m c p s k, entry_weights m c]

/-- THE RUN, READ: every weakly fair execution of the kernel program ends with the result at that function of the
    arguments and the arguments unchanged. -/
theorem run : θ_run defs (onTc (τ := τ) (main (F := Ideal))) ⟨m, fun _ => 0, ρ⟩ fun r => ∀ c : Dev nD,
      r.2.mem ((c : Thread nD τ).loc main_v9)
        = outScaleAfter (threshold (m ((c : Thread nD τ).loc main_arg1) : S1024x1024.Idx → EReal))
            (m ((c : Thread nD τ).loc main_arg0) : S8x4096x1024.Idx → EReal)
            (m ((c : Thread nD τ).loc main_arg1) : S1024x1024.Idx → EReal)
            ((m ((c : Thread nD τ).loc main_arg2) : S1.Idx → EReal) (ix1 0))
            (m ((c : Thread nD τ).loc main_arg3) : S1024.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨((h c).2 main_v9 (Pipeline.mem_restRefs_of main_v9 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end TernaryLinear.Kernel

end
-- ==== Proof.lean ====
/-
  The ternary linear layer: a kernel program against its reference program, on the extended reals.

  Both programs code each weight `w[o,k]` against the threshold `δ = 0.7 · mean|w|` as `1`, `-1` or `0`, contract the
  activations with the codes over the input features, scale by `α` and add the bias. They differ in three ways, none
  of which is visible at exact arithmetic once the inputs are finite:
  * the kernel rounds both matrix operands to a narrower format first — the identity on the extended reals;
  * the kernel tests the lower threshold as `w < 0 - δ`, the reference as `w < -δ` — the same extended real;
  * the kernel scales the finished sum, `(∑ₖ xₖ cₖ) · α`, the reference each code, `∑ₖ xₖ (cₖ α)`. Moving a factor
    across a sum is NOT a law of the extended reals (`(1 - 1) · ⊤ ≠ 1 · ⊤ - 1 · ⊤`); it holds here because the codes
    are three real numbers and the precondition makes the activations and the scale real (Spec, Finite).
  The kernel's result array is read off its run block by block (KernelPayload, KernelValue), the reference's off its
  run operation by operation (RefValue); the two thresholds are one term of the weights. The three frames are the
  programs' runs with the results forgotten, and the idealization rewrote nothing, so there is nothing to preserve.
-/
import proofs.«107895_j44719199486025_2_alg».proof.Defs
import proofs.«107895_j44719199486025_2_alg».proof.Proof.Gen.Kernel
import proofs.«107895_j44719199486025_2_alg».proof.Proof.Gen.Kernel.Skeleton
import proofs.«107895_j44719199486025_2_alg».proof.Proof.Gen.Kernel.Launch
import proofs.«107895_j44719199486025_2_alg».proof.Proof.Gen.Kernel.Points
import proofs.«107895_j44719199486025_2_alg».proof.Proof.Gen.Kernel.Frame
import proofs.«107895_j44719199486025_2_alg».proof.Proof.Gen.KernelIdeal
import proofs.«107895_j44719199486025_2_alg».proof.Proof.Gen.KernelIdeal.Skeleton
import proofs.«107895_j44719199486025_2_alg».proof.Proof.Gen.KernelIdeal.Launch
import proofs.«107895_j44719199486025_2_alg».proof.Proof.Gen.KernelIdeal.Points
import proofs.«107895_j44719199486025_2_alg».proof.Proof.Gen.KernelIdeal.Frame
import proofs.«107895_j44719199486025_2_alg».proof.Proof.Gen.ReferenceIdeal
import proofs.«107895_j44719199486025_2_alg».proof.Proof.Gen.Pre_finite_inputs
import proofs.«107895_j44719199486025_2_alg».proof.Proof.Gen.ReferenceIdeal.Run
import proofs.«107895_j44719199486025_2_alg».proof.Proof.Gen.ReferenceIdeal.Read
import proofs.«107895_j44719199486025_2_alg».proof.Proof.Spec
import proofs.«107895_j44719199486025_2_alg».proof.Proof.Finite
import proofs.«107895_j44719199486025_2_alg».proof.Proof.RefValue
import proofs.«107895_j44719199486025_2_alg».proof.Proof.KernelPayload
import proofs.«107895_j44719199486025_2_alg».proof.Proof.KernelValue
import Idealize.ShloMosaic.Adequacy
import Idealize.ShloMosaic.Init

noncomputable section

namespace Cert.Proof

open Idealize.ShloMosaic Idealize.ShloMosaic.TcCoe Idealize.SL.Sem Idealize.ShloMosaic.ValueIdx

/-- The two programs compute the threshold by the same host operations of the weights: one term. -/
theorem threshold_eq (w : TernaryLinear.Weights) : TernaryLinear.Reference.threshold w = TernaryLinear.Kernel.threshold w := rfl

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the four arguments, the first satisfying the precondition, both programs end with
    the same result: the kernel's is the layer with the scale applied to the finished sum, the reference's the layer
    with the scale inside the sum, at one threshold, and real activations and a real scale make the two orders one. -/
theorem algebraic : Cert.algebraic_KernelIdeal_ReferenceIdeal := by
  intro m ρ m' ρ' hpre hagree
  refine ⟨_, TernaryLinear.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hα⟩ := TernaryLinear.Finite.real_of_pre _ _ _ _ (hpre c)
  rw [Cert.ReferenceIdeal.Read.val_main_v18_eq, TernaryLinear.Reference.result_eq, (hagree c).1, (hagree c).2.1,
    (hagree c).2.2.1, (hagree c).2.2.2, threshold_eq]
  exact (TernaryLinear.outScaleAfter_eq_outScaleInside _ _ _ _ _ hx (hα (ix1 0))).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
